-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)) (v2 : (c : Dev Cert.KernelIdeal.nD) → Buf (Elt Ideal) ((c.tc : Thread Cert.KernelIdeal.nD Cert.KernelIdeal.τ).loc Cert.KernelIdeal.main_v26_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_v26_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S800000 : Shape := ⟨1, ![800000]⟩
abbrev S100000x16 : Shape := ⟨2, ![100000, 16]⟩
abbrev S64x64 : Shape := ⟨2, ![64, 64]⟩
abbrev S64 : Shape := ⟨1, ![64]⟩
abbrev S128x64 : Shape := ⟨2, ![128, 64]⟩
abbrev S64x16 : Shape := ⟨2, ![64, 16]⟩
abbrev S16 : Shape := ⟨1, ![16]⟩
abbrev S16x64 : Shape := ⟨2, ![16, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x16 : S_.BroadcastsInDim S100000x16 (![] : Fin 0 → Fin S100000x16.rank)
  reducesTo_S100000x16_S_d0_1 : S100000x16.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_

variable [Facts]

def fn_part4 {F : FTy → Type} [FloatOps F] (main_arg16 : FVec F S64x64 .f32) (main_arg17 : FVec F S64 .f32) (main_v63 : IVec S_ 1) (main_v67 : IVec S_ 1) : IVec S_ 1 :=
  let main_v68 : IVec S_ 1 := andi main_v63 main_v67
  let main_v69 : FVec F S64x64 .f32 := Host.absf main_arg16
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  main_v78

def fn_part3 {F : FTy → Type} [FloatOps F] (main_arg13 : FVec F S16 .f32) (main_arg14 : FVec F S16x64 .f32) (main_arg15 : FVec F S64 .f32) (main_arg16 : FVec F S64x64 .f32) (main_arg17 : FVec F S64 .f32) (main_v48 : IVec S_ 1) (main_v49 : FVec F S64x16 .f32) (main_v50 : FVec F S64x16 .f32) : IVec S_ 1 :=
  let main_v51 : IVec S64x16 1 := cmpf .olt main_v49 main_v50
  let main_c_19 : IVec S_ 1 := constantI S_ 1 1#1
  let main_v52 : IVec S_ 1 := (fun x v => Host.reduce IntOp.andi x v reducesTo_S64x16_S_d0_1 h_S_) main_v51 main_c_19
  let main_v53 : IVec S_ 1 := andi main_v48 main_v52
  let main_v54 : FVec F S16 .f32 := Host.absf main_arg13
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S16x64 .f32 := Host.absf main_arg14
  let main_cst_22 : FVec F S_ .f32 := constant S_ .f32 0x7F800000#32
  let main_v60 : FVec F S16x64 .f32 := broadcastInDim S16x64 ![] bcast_S_S16x64 main_cst_22
  let main_v61 : IVec S16x64 1 := cmpf .olt main_v59 main_v60
  let main_c_23 : IVec S_ 1 := constantI S_ 1 1#1
  let main_v62 : IVec S_ 1 := (fun x v => Host.reduce IntOp.andi x v reducesTo_S16x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_v63 main_v67

def fn_part2 {F : FTy → Type} [FloatOps F] (main_arg9 : FVec F S64 .f32) (main_arg10 : FVec F S64x16 .f32) (main_arg11 : FVec F S16 .f32) (main_arg12 : FVec F S64x16 .f32) (main_arg13 : FVec F S16 .f32) (main_arg14 : FVec F S16x64 .f32) (main_arg15 : FVec F S64 .f32) (main_arg16 : FVec F S64x64 .f32) (main_arg17 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x16 .f32 := Host.absf main_arg10
  let main_cst_14 : FVec F S_ .f32 := constant S_ .f32 0x7F800000#32
  let main_v40 : FVec F S64x16 .f32 := broadcastInDim S64x16 ![] bcast_S_S64x16 main_cst_14
  let main_v41 : IVec S64x16 1 := cmpf .olt main_v39 main_v40
  let main_c_15 : IVec S_ 1 := constantI S_ 1 1#1
  let main_v42 : IVec S_ 1 := (fun x v => Host.reduce IntOp.andi x v reducesTo_S64x16_S_d0_1 h_S_) main_v41 main_c_15
  let main_v43 : IVec S_ 1 := andi main_v38 main_v42
  let main_v44 : FVec F S16 .f32 := Host.absf main_arg11
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S64x16 .f32 := Host.absf main_arg12
  let main_cst_18 : FVec F S_ .f32 := constant S_ .f32 0x7F800000#32
  let main_v50 : FVec F S64x16 .f32 := broadcastInDim S64x16 ![] bcast_S_S64x16 main_cst_18
  fn_part3 (F := F) main_arg13 main_arg14 main_arg15 main_arg16 main_arg17 main_v48 main_v49 main_v50

def fn_part1 {F : FTy → Type} [FloatOps F] (main_arg6 : FVec F S128x64 .f32) (main_arg7 : FVec F S64 .f32) (main_arg8 : FVec F S64x64 .f32) (main_arg9 : FVec F S64 .f32) (main_arg10 : FVec F S64x16 .f32) (main_arg11 : FVec F S16 .f32) (main_arg12 : FVec F S64x16 .f32) (main_arg13 : FVec F S16 .f32) (main_arg14 : FVec F S16x64 .f32) (main_arg15 : FVec F S64 .f32) (main_arg16 : FVec F S64x64 .f32) (main_arg17 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S100000x64 .f32) (main_arg1 : IVec S800000 32) (main_arg2 : IVec S800000 32) (main_arg3 : FVec F S100000x16 .f32) (main_arg4 : FVec F S64x64 .f32) (main_arg5 : FVec F S64 .f32) (main_arg6 : FVec F S128x64 .f32) (main_arg7 : FVec F S64 .f32) (main_arg8 : FVec F S64x64 .f32) (main_arg9 : FVec F S64 .f32) (main_arg10 : FVec F S64x16 .f32) (main_arg11 : FVec F S16 .f32) (main_arg12 : FVec F S64x16 .f32) (main_arg13 : FVec F S16 .f32) (main_arg14 : FVec F S16x64 .f32) (main_arg15 : FVec F S64 .f32) (main_arg16 : FVec F S64x64 .f32) (main_arg17 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x16 .f32 := Host.absf main_arg3
  let main_cst_0 : FVec F S_ .f32 := constant S_ .f32 0x7F800000#32
  let main_v5 : FVec F S100000x16 .f32 := broadcastInDim S100000x16 ![] bcast_S_S100000x16 main_cst_0
  let main_v6 : IVec S100000x16 1 := cmpf .olt main_v4 main_v5
  let main_c_1 : IVec S_ 1 := constantI S_ 1 1#1
  let main_v7 : IVec S_ 1 := (fun x v => Host.reduce IntOp.andi x v reducesTo_S100000x16_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S100000x64 : Shape := ⟨2, ![100000, 64]⟩
abbrev S800000 : Shape := ⟨1, ![800000]⟩
abbrev S100000x16 : Shape := ⟨2, ![100000, 16]⟩
abbrev S64x64 : Shape := ⟨2, ![64, 64]⟩
abbrev S64 : Shape := ⟨1, ![64]⟩
abbrev S128x64 : Shape := ⟨2, ![128, 64]⟩
abbrev S64x16 : Shape := ⟨2, ![64, 16]⟩
abbrev S16 : Shape := ⟨1, ![16]⟩
abbrev S16x64 : Shape := ⟨2, ![16, 64]⟩
abbrev S_ : Shape := ⟨0, ![]⟩
abbrev S800000x1 : Shape := ⟨2, ![800000, 1]⟩
abbrev S800000x64 : Shape := ⟨2, ![800000, 64]⟩
abbrev S100000 : Shape := ⟨1, ![100000]⟩
abbrev S100000x1 : Shape := ⟨2, ![100000, 1]⟩
abbrev S2000x64 : Shape := ⟨2, ![2000, 64]⟩
abbrev S2000x16 : Shape := ⟨2, ![2000, 16]⟩
abbrev S1x64 : Shape := ⟨2, ![1, 64]⟩
abbrev S2000x128 : Shape := ⟨2, ![2000, 128]⟩
abbrev S1x16 : Shape := ⟨2, ![1, 16]⟩

abbrev nBuf : Space → Nat
  | .hbm => 53
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S800000, .i32⟩
  | .hbm, ⟨2, _⟩ => ⟨S800000, .i32⟩
  | .hbm, ⟨3, _⟩ => ⟨S100000x16, .f32⟩
  | .hbm, ⟨4, _⟩ => ⟨S64x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x16, .f32⟩
  | .hbm, ⟨11, _⟩ => ⟨S16, .f32⟩
  | .hbm, ⟨12, _⟩ => ⟨S64x16, .f32⟩
  | .hbm, ⟨13, _⟩ => ⟨S16, .f32⟩
  | .hbm, ⟨14, _⟩ => ⟨S16x64, .f32⟩
  | .hbm, ⟨15, _⟩ => ⟨S64, .f32⟩
  | .hbm, ⟨16, _⟩ => ⟨S64x64, .f32⟩
  | .hbm, ⟨17, _⟩ => ⟨S64, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x64, .f32⟩
  | .hbm, ⟨27, _⟩ => ⟨S_, .f32⟩
  | .hbm, ⟨28, _⟩ => ⟨S100000x64, .f32⟩
  | .hbm, ⟨29, _⟩ => ⟨S800000x1, .i32⟩
  | .hbm, ⟨30, _⟩ => ⟨S100000x64, .f32⟩
  | .hbm, ⟨31, _⟩ => ⟨S_, .f32⟩
  | .hbm, ⟨32, _⟩ => ⟨S800000, .f32⟩
  | .hbm, ⟨33, _⟩ => ⟨S_, .f32⟩
  | .hbm, ⟨34, _⟩ => ⟨S100000, .f32⟩
  | .hbm, ⟨35, _⟩ => ⟨S800000x1, .i32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S100000x64, .f32⟩
  | .hbm, ⟨42, _⟩ => ⟨S100000x64, .f32⟩
  | .hbm, ⟨43, _⟩ => ⟨S64x64, .bf16⟩
  | .hbm, ⟨44, _⟩ => ⟨S128x64, .bf16⟩
  | .hbm, ⟨45, _⟩ => ⟨S64x64, .bf16⟩
  | .hbm, ⟨46, _⟩ => ⟨S64x16, .bf16⟩
  | .hbm, ⟨47, _⟩ => ⟨S64x16, .bf16⟩
  | .hbm, ⟨48, _⟩ => ⟨S16x64, .bf16⟩
  | .hbm, ⟨49, _⟩ => ⟨S64x64, .bf16⟩
  | .hbm, ⟨50, _⟩ => ⟨S100000x64, .f32⟩
  | .hbm, ⟨51, _⟩ => ⟨S100000x16, .f32⟩
  | .hbm, ⟨52, _⟩ => ⟨S100000x16, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x16, .f32⟩
  | .local _ .vmem, ⟨5, _⟩ => ⟨S2000x16, .f32⟩
  | .local _ .vmem, ⟨6, _⟩ => ⟨S64x64, .bf16⟩
  | .local _ .vmem, ⟨7, _⟩ => ⟨S64, .f32⟩
  | .local _ .vmem, ⟨8, _⟩ => ⟨S128x64, .bf16⟩
  | .local _ .vmem, ⟨9, _⟩ => ⟨S64, .f32⟩
  | .local _ .vmem, ⟨10, _⟩ => ⟨S64x64, .bf16⟩
  | .local _ .vmem, ⟨11, _⟩ => ⟨S64, .f32⟩
  | .local _ .vmem, ⟨12, _⟩ => ⟨S64x16, .bf16⟩
  | .local _ .vmem, ⟨13, _⟩ => ⟨S16, .f32⟩
  | .local _ .vmem, ⟨14, _⟩ => ⟨S64x16, .bf16⟩
  | .local _ .vmem, ⟨15, _⟩ => ⟨S16, .f32⟩
  | .local _ .vmem, ⟨16, _⟩ => ⟨S16x64, .bf16⟩
  | .local _ .vmem, ⟨17, _⟩ => ⟨S64, .f32⟩
  | .local _ .vmem, ⟨18, _⟩ => ⟨S64x64, .bf16⟩
  | .local _ .vmem, ⟨19, _⟩ => ⟨S64, .f32⟩
  | .local _ .vmem, ⟨20, _⟩ => ⟨S2000x64, .f32⟩
  | .local _ .vmem, ⟨21, _⟩ => ⟨S2000x64, .f32⟩
  | .local _ .vmem, ⟨22, _⟩ => ⟨S2000x16, .f32⟩
  | .local _ .vmem, ⟨23, _⟩ => ⟨S2000x16, .f32⟩
  | .local _ .vmem, ⟨24, _⟩ => ⟨S2000x16, .f32⟩
  | .local _ .vmem, ⟨25, _⟩ => ⟨S2000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_cst_2 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_3 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26_0 : Ref sig .tc := ⟨.hbm, 50, rfl⟩
abbrev main_v26_1 : Ref sig .tc := ⟨.hbm, 51, rfl⟩
abbrev main_v26_2 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x16 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x16 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x64 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x64 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S2000x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2000x16 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2000x16 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bitsLt_bf16_f32 : FTy.bits .bf16 < FTy.bits .f32
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x16_S2000x16_0_0 : ∀ a, (![0, 0] : Fin 2 → Nat) a + S2000x16.size a ≤ S2000x16.size a
  h_S2000x16 : 0 < S2000x16.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  concatenates_S2000x64_S2000x64_S2000x128_d1 : Shape.Concatenates [S2000x64, S2000x64] S2000x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S16_S16_0 : ∀ a, (![0] : Fin 1 → Nat) a + S16.size a ≤ S16.size a
  h_S16 : 0 < S16.numel
  shapeCasts_S16_S1x16 : S16.ShapeCasts S1x16
  broadcasts_S1x16_S2000x16 : S1x16.Broadcasts S2000x16
  inb_S16x64_S16x64_0_0 : ∀ a, (![0, 0] : Fin 2 → Nat) a + S16x64.size a ≤ S16x64.size a
  h_S16x64 : 0 < S16x64.numel
  shapeCasts_S16x64_S16x64 : S16x64.ShapeCasts S16x64
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  scatter_S100000_S800000x1_S800000_n_0_0_1_wf : ScatterDims.WF S100000 S800000x1 S800000 [] [0] [0] 1
  dot_S2000x64_S64x64_S2000x64_1_0_0_1_n_n_wf : DotDims.WF S2000x64 S64x64 S2000x64 [1] [0] [0] [1] [] []
  dot_S2000x128_S128x64_S2000x64_1_0_0_1_n_n_wf : DotDims.WF S2000x128 S128x64 S2000x64 [1] [0] [0] [1] [] []
  dot_S2000x64_S64x16_S2000x16_1_0_0_1_n_n_wf : DotDims.WF S2000x64 S64x16 S2000x16 [1] [0] [0] [1] [] []
  dot_S2000x16_S16x64_S2000x64_1_0_0_1_n_n_wf : DotDims.WF S2000x16 S16x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .bf16 = 32 ∨ (Rect.block (s := S128x64) S128x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .bf16 = 32 ∨ (Rect.block (s := S64x64) S64x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x16.size a ≤ S64x16.size a
  hwx0_9 : ∀ i : grid0.Coords, EltTy.bits .bf16 = 32 ∨ (Rect.block (s := S64x16) S64x16.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S16.size a ≤ S16.size a
  hwx0_10 : ∀ i : grid0.Coords, EltTy.bits .f32 = 32 ∨ (Rect.block (s := S16) S16.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x16.size a ≤ S64x16.size a
  hwx0_11 : ∀ i : grid0.Coords, EltTy.bits .bf16 = 32 ∨ (Rect.block (s := S64x16) S64x16.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S16.size a ≤ S16.size a
  hwx0_12 : ∀ i : grid0.Coords, EltTy.bits .f32 = 32 ∨ (Rect.block (s := S16) S16.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S16x64.size a ≤ S16x64.size a
  hwx0_13 : ∀ i : grid0.Coords, EltTy.bits .bf16 = 32 ∨ (Rect.block (s := S16x64) S16x64.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64.size a ≤ S64.size a
  hwx0_14 : ∀ i : grid0.Coords, EltTy.bits .f32 = 32 ∨ (Rect.block (s := S64) S64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S64x64.size a ≤ S64x64.size a
  hwx0_15 : ∀ i : grid0.Coords, EltTy.bits .bf16 = 32 ∨ (Rect.block (s := S64x64) S64x64.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S64.size a ≤ S64.size a
  hwx0_16 : ∀ i : grid0.Coords, EltTy.bits .f32 = 32 ∨ (Rect.block (s := S64) S64.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S2000x64.size a ≤ S100000x64.size a
  hwx0_17 : ∀ i : grid0.Coords, EltTy.bits .f32 = 32 ∨ (Rect.block (s := S100000x64) S2000x64.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S2000x16.size a ≤ S100000x16.size a
  hwx0_18 : ∀ i : grid0.Coords, EltTy.bits .f32 = 32 ∨ (Rect.block (s := S100000x16) S2000x16.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S2000x16.size a ≤ S100000x16.size a
  hwx0_19 : ∀ i : grid0.Coords, EltTy.bits .f32 = 32 ∨ (Rect.block (s := S100000x16) S2000x16.size (cc0_transform_19 i) (hinb0_19 i)).WholeWords (EltTy.packing .f32)

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x16_S2000x16_1_0_0_1_n_n : DotDims S2000x64 S64x16 S2000x16 where
  lhsContracting := [1]
  rhsContracting := [0]
  lhsNonContracting := [0]
  rhsNonContracting := [1]
  lhsBatch := []
  rhsBatch := []
  wf := dot_S2000x64_S64x16_S2000x16_1_0_0_1_n_n_wf
def dot_S2000x16_S16x64_S2000x64_1_0_0_1_n_n : DotDims S2000x16 S16x64 S2000x64 where
  lhsContracting := [1]
  rhsContracting := [0]
  lhsNonContracting := [0]
  rhsNonContracting := [1]
  lhsBatch := []
  rhsBatch := []
  wf := dot_S2000x16_S16x64_S2000x64_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22) S64x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S16.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v23) S64x16.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S16.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v24) S16x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg15) S64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v25) S64x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg17) S64.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v26_0) S2000x64.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v26_1) S2000x16.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v26_2) S2000x16.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S100000x64 : Shape := ⟨2, ![100000, 64]⟩
abbrev S800000 : Shape := ⟨1, ![800000]⟩
abbrev S100000x16 : Shape := ⟨2, ![100000, 16]⟩
abbrev S64x64 : Shape := ⟨2, ![64, 64]⟩
abbrev S64 : Shape := ⟨1, ![64]⟩
abbrev S128x64 : Shape := ⟨2, ![128, 64]⟩
abbrev S64x16 : Shape := ⟨2, ![64, 16]⟩
abbrev S16 : Shape := ⟨1, ![16]⟩
abbrev S16x64 : Shape := ⟨2, ![16, 64]⟩
abbrev S_ : Shape := ⟨0, ![]⟩
abbrev S800000x1 : Shape := ⟨2, ![800000, 1]⟩
abbrev S800000x64 : Shape := ⟨2, ![800000, 64]⟩
abbrev S100000 : Shape := ⟨1, ![100000]⟩
abbrev S100000x1 : Shape := ⟨2, ![100000, 1]⟩
abbrev S1x64 : Shape := ⟨2, ![1, 64]⟩
abbrev S100000x128 : Shape := ⟨2, ![100000, 128]⟩
abbrev S1x16 : Shape := ⟨2, ![1, 16]⟩

abbrev nBuf : Space → Nat
  | .hbm => 98
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S800000, .i32⟩
  | .hbm, ⟨2, _⟩ => ⟨S800000, .i32⟩
  | .hbm, ⟨3, _⟩ => ⟨S100000x16, .f32⟩
  | .hbm, ⟨4, _⟩ => ⟨S64x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x16, .f32⟩
  | .hbm, ⟨11, _⟩ => ⟨S16, .f32⟩
  | .hbm, ⟨12, _⟩ => ⟨S64x16, .f32⟩
  | .hbm, ⟨13, _⟩ => ⟨S16, .f32⟩
  | .hbm, ⟨14, _⟩ => ⟨S16x64, .f32⟩
  | .hbm, ⟨15, _⟩ => ⟨S64, .f32⟩
  | .hbm, ⟨16, _⟩ => ⟨S64x64, .f32⟩
  | .hbm, ⟨17, _⟩ => ⟨S64, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x64, .f32⟩
  | .hbm, ⟨27, _⟩ => ⟨S_, .f32⟩
  | .hbm, ⟨28, _⟩ => ⟨S100000x64, .f32⟩
  | .hbm, ⟨29, _⟩ => ⟨S800000x1, .i32⟩
  | .hbm, ⟨30, _⟩ => ⟨S100000x64, .f32⟩
  | .hbm, ⟨31, _⟩ => ⟨S_, .f32⟩
  | .hbm, ⟨32, _⟩ => ⟨S800000, .f32⟩
  | .hbm, ⟨33, _⟩ => ⟨S_, .f32⟩
  | .hbm, ⟨34, _⟩ => ⟨S100000, .f32⟩
  | .hbm, ⟨35, _⟩ => ⟨S800000x1, .i32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S1x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .f32⟩
  | .hbm, ⟨50, _⟩ => ⟨S100000x128, .f32⟩
  | .hbm, ⟨51, _⟩ => ⟨S100000x64, .f32⟩
  | .hbm, ⟨52, _⟩ => ⟨S1x64, .f32⟩
  | .hbm, ⟨53, _⟩ => ⟨S100000x64, .f32⟩
  | .hbm, ⟨54, _⟩ => ⟨S100000x64, .f32⟩
  | .hbm, ⟨55, _⟩ => ⟨S_, .f32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S100000x64, .f32⟩
  | .hbm, ⟨64, _⟩ => ⟨S100000x64, .f32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S100000x16, .f32⟩
  | .hbm, ⟨70, _⟩ => ⟨S1x16, .f32⟩
  | .hbm, ⟨71, _⟩ => ⟨S100000x16, .f32⟩
  | .hbm, ⟨72, _⟩ => ⟨S100000x16, .f32⟩
  | .hbm, ⟨73, _⟩ => ⟨S_, .f32⟩
  | .hbm, ⟨74, _⟩ => ⟨S100000x16, .f32⟩
  | .hbm, ⟨75, _⟩ => ⟨S100000x16, .f32⟩
  | .hbm, ⟨76, _⟩ => ⟨S100000x16, .f32⟩
  | .hbm, ⟨77, _⟩ => ⟨S100000x16, .f32⟩
  | .hbm, ⟨78, _⟩ => ⟨S100000x16, .f32⟩
  | .hbm, ⟨79, _⟩ => ⟨S100000x64, .f32⟩
  | .hbm, ⟨80, _⟩ => ⟨S1x64, .f32⟩
  | .hbm, ⟨81, _⟩ => ⟨S100000x64, .f32⟩
  | .hbm, ⟨82, _⟩ => ⟨S100000x64, .f32⟩
  | .hbm, ⟨83, _⟩ => ⟨S_, .f32⟩
  | .hbm, ⟨84, _⟩ => ⟨S100000x64, .f32⟩
  | .hbm, ⟨85, _⟩ => ⟨S100000x64, .f32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S_, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S100000x64, .f32⟩
  | .hbm, ⟨97, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_cst_2 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_3 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_call0_cst : Ref sig .tc := ⟨.hbm, 47, rfl⟩
abbrev main_call0_v0 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_call1_cst : Ref sig .tc := ⟨.hbm, 55, rfl⟩
abbrev main_call1_v0 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_call2_cst : Ref sig .tc := ⟨.hbm, 62, rfl⟩
abbrev main_call2_v0 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_4 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_call3_cst : Ref sig .tc := ⟨.hbm, 83, rfl⟩
abbrev main_call3_v0 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_5 : Ref sig .tc := ⟨.hbm, 92, rfl⟩
abbrev main_v59 : Ref sig .tc := ⟨.hbm, 93, rfl⟩
abbrev main_v60 : Ref sig .tc := ⟨.hbm, 94, rfl⟩
abbrev main_cst_6 : Ref sig .tc := ⟨.hbm, 95, rfl⟩
abbrev main_v61 : Ref sig .tc := ⟨.hbm, 96, rfl⟩
abbrev main_v62 : Ref sig .tc := ⟨.hbm, 97, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S100000x64_S100000x64_S100000x128_d1 : Shape.Concatenates [S100000x64, S100000x64] S100000x128 1
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  scatter_S100000_S800000x1_S800000_n_0_0_1_wf : ScatterDims.WF S100000 S800000x1 S800000 [] [0] [0] 1
  dot_S100000x64_S64x64_S100000x64_1_0_0_1_n_n_wf : DotDims.WF S100000x64 S64x64 S100000x64 [1] [0] [0] [1] [] []
  dot_S100000x128_S128x64_S100000x64_1_0_0_1_n_n_wf : DotDims.WF S100000x128 S128x64 S100000x64 [1] [0] [0] [1] [] []
  dot_S100000x64_S64x16_S100000x16_1_0_0_1_n_n_wf : DotDims.WF S100000x64 S64x16 S100000x16 [1] [0] [0] [1] [] []
  dot_S100000x16_S16x64_S100000x64_1_0_0_1_n_n_wf : DotDims.WF S100000x16 S16x64 S100000x64 [1] [0] [0] [1] [] []

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf

class Facts : Prop extends Facts₀ where

variable [Facts]
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibRowBias.lean ====
/-
  A DENSE LAYER WHOSE BIAS ARRIVES AS ONE ROW, AND THE RECTIFIER, at the ideal values.

  Stated over LibDenseRow's dense layer `layerArr` and activation `actArr`.  A kernel often receives
  its bias already laid out as a one-row array `[1, N]` (the reshape from `[N]` is done outside the kernel); the body then
  casts `[1, N]` to itself and broadcasts it over the rows.  Read here at an index `(p, c)` and as a whole array generic in
  the row count:
  • `klayer1_apply`, `klayer1Arr`: a matrix product into the zero accumulator plus such a bias is LibDenseRow's dense layer
    `layerArr a w (unrow v)`, where `unrow v` is the bias's one row as a vector;
  • `unrow_cast`: a vector cast to one row and read back as a vector is itself (the host's reshape undone);
  • `kact`, `hact`: the larger of an array and the zero word splat over it (vector unit), or the zero constant broadcast
    from a scalar (host), is LibDenseRow's activation `actArr zf` at the level `zf`, the value of the all-zero word, which is
    never evaluated.
  No algebra of the extended reals is used.
-/
import proofs.«142285_j11828339933907_1_alg».proof.Proof.LibDenseRow

noncomputable section

open scoped BigOperators

namespace Cert.RowBias

open Idealize.ShloMosaic Idealize.ShloMosaic.ValueIdx Cert.DenseRow

/-- The one row of a `[1, N]` array, as a vector of `N` numbers. -/
def unrow {N : ℕ} (v : (⟨2, ![1, N]⟩ : Shape).Idx → EReal) : (⟨1, ![N]⟩ : Shape).Idx → EReal :=
  fun i => v (ix2 (0 : Fin 1) (i 0))

theorem unrow_apply {N : ℕ} (v : (⟨2, ![1, N]⟩ : Shape).Idx → EReal) (j : Fin N) : unrow v (ix1 j) = v (ix2 (0 : Fin 1) j) := rfl

/-- A vector cast to one row and read back as a vector is itself. -/
theorem unrow_cast {N : ℕ} (x : (⟨1, ![N]⟩ : Shape).Idx → EReal) (h : (⟨1, ![N]⟩ : Shape).ShapeCasts ⟨2, ![1, N]⟩) :
    unrow (shapeCast ⟨2, ![1, N]⟩ x h) = x := by
  funext i
  rw [eq_ix1 i]
  exact shapeCast_a_1a_apply x h 0 (i 0)

/-- The level a rectifier compares with: the value of the all-zero word. -/
def zf : EReal := Ideal.ofBits .f32 0x00000000#32

/-! ## The vector unit's layer with a one-row bias -/

/-- A matrix product into the zero accumulator plus a one-row bias `[1, N]` cast to itself and broadcast over the rows,
    read at `(p, c)`: the dense layer of row `p` with the bias's one row. -/
theorem klayer1_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩)
    (p : Fin R) (c : Fin N) :
    addf (matmul d prec a w (constant ⟨2, ![R, N]⟩ .f32 0x00000000#32))
        (broadcastTo ⟨2, ![R, N]⟩ (shapeCast ⟨2, ![1, N]⟩ v hc) hb) (ix2 p c)
      = layer (fun k => a (ix2 p k)) (fun k j => w (ix2 k j)) (fun j => unrow v (ix1 j)) c := by
  show FloatOps.matmul d prec a w (constant ⟨2, ![R, N]⟩ .f32 0x00000000#32) (ix2 p c)
      + broadcastTo ⟨2, ![R, N]⟩ (shapeCast ⟨2, ![1, N]⟩ v hc) hb (ix2 p c) = _
  rw [Ideal.matmul_constant_zero_apply, contr_sum d hr hs hl hrr, shapeCast_self, broadcastTo_1b_ab_apply]
  rfl

/-- The same, as a whole array. -/
theorem klayer1Arr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩) :
    addf (matmul d prec a w (constant ⟨2, ![R, N]⟩ .f32 0x00000000#32))
        (broadcastTo ⟨2, ![R, N]⟩ (shapeCast ⟨2, ![1, N]⟩ v hc) hb)
      = layerArr a w (unrow v) := by
  funext i
  obtain ⟨p, c, rfl⟩ : ∃ (p : Fin R) (c : Fin N), i = ix2 p c := ⟨i 0, i 1, eq_ix2 i⟩
  exact klayer1_apply d hr hs hl hrr prec a w v hc hb p c

/-! ## The rectifier's two spellings -/

/-- On the vector unit: the larger of the array and the zero word splat over it. -/
theorem kact {s : Shape} (y : FVec Ideal s .f32) :
    maximumf y (broadcast s (Scalar.ofBits (F := Ideal) .f32 0x00000000#32)) = actArr zf y := rfl

/-- On the host: the larger of the array and the zero constant broadcast from a scalar. -/
theorem hact {s : Shape} (y : FVec Ideal s .f32) (h : (⟨0, ![]⟩ : Shape).BroadcastsInDim s ![]) :
    maximumf y (broadcastInDim s ![] h (constant (F := Ideal) ⟨0, ![]⟩ .f32 0x00000000#32)) = actArr zf y := by
  funext i
  show max (y i) (broadcastInDim s ![] h (constant (F := Ideal) ⟨0, ![]⟩ .f32 0x00000000#32) i) = max (y i) zf
  rw [broadcastInDim_apply _ h _ i ix0 (fun a => a.elim0)]
  rfl

end Cert.RowBias

end
-- ==== Proof.Network.lean ====
/-
  THE NETWORK, ROW BY ROW.

  Every node of the graph is a row.  Row `p` carries its features `x p` (64 numbers), the mean `a p` of its in-neighbours'
  features (64 numbers) and a noise row `e p` (16 numbers).  With a dense layer `y ↦ y·W + b` and the rectifier
  `max(·, 0)`, the network computes on each row

      n = max(a·W_agg + b_agg, 0)          the neighbourhood's encoding
      f = max([x, n]·W_fus + b_fus, 0)     features and encoding side by side, fused
      h = max(f·W₁ + b₁, 0)                the hidden row                         (`enc`)
      μ = h·W₂₁ + b₂₁,   s = h·W₂₂ + b₂₂    the latent mean and log-variance       (`mean`, `logvar`)
      z = μ + e · exp(½ · s)               the latent sample                      (`latent`)
      r = σ(max(z·W₃ + b₃, 0)·W₄ + b₄)     the reconstruction, σ the logistic     (`recon`)

  and returns `r`, `μ`, `s`.  Everything is stated for an array of any number `R` of rows, over LibDenseRow's dense
  layer, activation and column join.  Each output row depends on the same row of `x`, `a`, `e` and on nothing else of
  them (`enc_rows` … `recon_rows`): so the network on a block of rows is that block of rows of the network on all rows.
  The constants `0` and `½` are kept as the values of their words and never evaluated; no sum is regrouped and no
  algebra of the extended reals is used.
-/
import proofs.«142285_j11828339933907_1_alg».proof.Proof.LibRowBias
import Idealize.ShloMosaic.PureOps.Ideal

noncomputable section

open scoped BigOperators

namespace Cert.Net

open Idealize.ShloMosaic Idealize.ShloMosaic.ValueIdx Cert.DenseRow Cert.RowBias

/-- An array of `R` rows of `n` extended reals. -/
abbrev Arr (R n : ℕ) : Type := (⟨2, ![R, n]⟩ : Shape).Idx → EReal
/-- A vector of `n` extended reals. -/
abbrev Row (n : ℕ) : Type := (⟨1, ![n]⟩ : Shape).Idx → EReal

/-- The network's seven weight matrices and bias vectors. -/
structure Weights where
  wagg : Arr 64 64
  bagg : Row 64
  wfus : Arr 128 64
  bfus : Row 64
  w1 : Arr 64 64
  b1 : Row 64
  w21 : Arr 64 16
  b21 : Row 16
  w22 : Arr 64 16
  b22 : Row 16
  w3 : Arr 16 64
  b3 : Row 64
  w4 : Arr 64 64
  b4 : Row 64

variable {R R' : ℕ}

/-- The hidden rows `h`: neighbourhood encoding, fusion with the features, first encoder layer. -/
def enc (θ : Weights) (x a : Arr R 64) : Arr R 64 :=
  actArr zf (layerArr (actArr zf (layerArr
    (catArr (show 128 = 64 + 64 from rfl) x (actArr zf (layerArr a θ.wagg θ.bagg))) θ.wfus θ.bfus)) θ.w1 θ.b1)

/-- The latent mean `μ`. -/
def mean (θ : Weights) (x a : Arr R 64) : Arr R 16 := layerArr (enc θ x a) θ.w21 θ.b21

/-- The latent log-variance `s`. -/
def logvar (θ : Weights) (x a : Arr R 64) : Arr R 16 := layerArr (enc θ x a) θ.w22 θ.b22

/-- The scale of the log-variance: the value of the word that spells one half. -/
def half : EReal := Ideal.ofBits .f32 0x3F000000#32

/-- The latent sample `z = μ + e · exp(½ · s)`. -/
def latent (θ : Weights) (x a : Arr R 64) (e : Arr R 16) : Arr R 16 :=
  fun i => mean θ x a i + e i * Ideal.exp (half * logvar θ x a i)

/-- The decoder's output before the logistic function. -/
def logits (θ : Weights) (x a : Arr R 64) (e : Arr R 16) : Arr R 64 :=
  layerArr (actArr zf (layerArr (latent θ x a e) θ.w3 θ.b3)) θ.w4 θ.b4

/-- The reconstruction `r`. -/
def recon (θ : Weights) (x a : Arr R 64) (e : Arr R 16) : Arr R 64 := fun i => Ideal.logistic (logits θ x a e i)

/-! ## Each output row depends on the same input row only -/

/-- Row `p` of `y` is row `p'` of `Y`. -/
def SameRow {n : ℕ} (y : Arr R n) (Y : Arr R' n) (p : Fin R) (p' : Fin R') : Prop := ∀ k : Fin n, y (ix2 p k) = Y (ix2 p' k)

variable {p : Fin R} {p' : Fin R'}

theorem SameRow.layer {K N : ℕ} {y : Arr R K} {Y : Arr R' K} (h : SameRow y Y p p') (w : Arr K N) (b : Row N) :
    SameRow (layerArr y w b) (layerArr Y w b) p p' := fun c => layerArr_rows y Y w b p p' h c

theorem SameRow.act {N : ℕ} {y : Arr R N} {Y : Arr R' N} (h : SameRow y Y p p') (z : EReal) :
    SameRow (actArr z y) (actArr z Y) p p' := fun c => actArr_rows z y Y p p' h c

theorem SameRow.cat {A B C : ℕ} (hC : C = A + B) {y₁ : Arr R A} {Y₁ : Arr R' A} {y₂ : Arr R B} {Y₂ : Arr R' B}
    (h₁ : SameRow y₁ Y₁ p p') (h₂ : SameRow y₂ Y₂ p p') : SameRow (catArr hC y₁ y₂) (catArr hC Y₁ Y₂) p p' :=
  fun c => catArr_rows hC y₁ y₂ Y₁ Y₂ p p' h₁ h₂ c

/-- Reading through a row map: if every row `p` of `y` is row `σ p` of `Y`, then `y` at `j` is `Y` at the index `J` whose row is
    `σ` of `j`'s row and whose column is `j`'s. -/
theorem at_rows {n : ℕ} {y : Arr R n} {Y : Arr R' n} (σ : Fin R → Fin R') (h : ∀ q : Fin R, SameRow y Y q (σ q))
    (j : (⟨2, ![R, n]⟩ : Shape).Idx) (J : (⟨2, ![R', n]⟩ : Shape).Idx) (h0 : J 0 = σ (j 0)) (h1 : (J 1).val = (j 1).val) :
    y j = Y J := by
  have e : J = ix2 (σ (j 0)) (j 1) := funext fun a => by
    match a with
    | ⟨0, _⟩ => exact h0
    | ⟨1, _⟩ => exact Fin.ext h1
  calc y j = y (ix2 (j 0) (j 1)) := congrArg y (eq_ix2 j)
    _ = Y (ix2 (σ (j 0)) (j 1)) := h (j 0) (j 1)
    _ = Y J := congrArg Y e.symm

variable (θ : Weights) {x a : Arr R 64} {X A : Arr R' 64} {e : Arr R 16} {E : Arr R' 16}

theorem enc_rows (hx : SameRow x X p p') (ha : SameRow a A p p') : SameRow (enc θ x a) (enc θ X A) p p' :=
  (((SameRow.cat (show 128 = 64 + 64 from rfl) hx ((ha.layer θ.wagg θ.bagg).act zf)).layer θ.wfus θ.bfus).act zf
    |>.layer θ.w1 θ.b1).act zf

theorem mean_rows (hx : SameRow x X p p') (ha : SameRow a A p p') : SameRow (mean θ x a) (mean θ X A) p p' :=
  (enc_rows θ hx ha).layer θ.w21 θ.b21

theorem logvar_rows (hx : SameRow x X p p') (ha : SameRow a A p p') : SameRow (logvar θ x a) (logvar θ X A) p p' :=
  (enc_rows θ hx ha).layer θ.w22 θ.b22

theorem latent_rows (hx : SameRow x X p p') (ha : SameRow a A p p') (he : SameRow e E p p') :
    SameRow (latent θ x a e) (latent θ X A E) p p' := fun k => by
  show mean θ x a (ix2 p k) + e (ix2 p k) * Ideal.exp (half * logvar θ x a (ix2 p k))
    = mean θ X A (ix2 p' k) + E (ix2 p' k) * Ideal.exp (half * logvar θ X A (ix2 p' k))
  rw [mean_rows θ hx ha k, logvar_rows θ hx ha k, he k]

theorem logits_rows (hx : SameRow x X p p') (ha : SameRow a A p p') (he : SameRow e E p p') :
    SameRow (logits θ x a e) (logits θ X A E) p p' :=
  (((latent_rows θ hx ha he).layer θ.w3 θ.b3).act zf).layer θ.w4 θ.b4

theorem recon_rows (hx : SameRow x X p p') (ha : SameRow a A p p') (he : SameRow e E p p') :
    SameRow (recon θ x a e) (recon θ X A E) p p' := fun k =>
  congrArg Ideal.logistic (logits_rows θ hx ha he k)

end Cert.Net

end
-- ==== Proof.Windows.lean ====
/-
  THE KERNEL'S WINDOWS, BLOCK BY BLOCK, at the ideal values.

  The kernel visits 50 grid points.  Point `t` loads rows `2000·t … 2000·t + 1999` of the features, of the neighbour average
  (the array the host operations before the launch leave, named `navg` and never opened here) and of the noise, the
  fourteen weight and bias arrays whole, and writes the same rows of the three results.
  • `row_idx`, `idx3` … `idx16`: the windows' block indices, decided over the grid — a row window is at row block `t`,
    column block 0; a weight or bias window is at block 0 on every axis.
  • `V_conv19` … `V_conv25`: a weight the host narrowed before the launch is, at the ideal values, as it was passed.
  • `iblk3_eq` … `iblk16_eq`: so a weight or bias window's block is the whole array as passed, at every point.
  • `emb0` … `emb19`: element `(p, k)` of a row window's block at point `t` sits at `(2000·t + p, k)` of its array
    (block index × block size + the coordinate inside the block).
  • `read0` … `read19`: so any array read through the block at `(p, k)` is the array at `(2000·t + p, k)`.
  • `iblk0_rows`, `iblk1_rows`, `iblk2_rows`: row `p` of an input's block is row `2000·t + p` of the input.
-/
import proofs.«142285_j11828339933907_1_alg».proof.Proof.Gen.KernelIdeal.Value
import proofs.«142285_j11828339933907_1_alg».proof.Proof.Network
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Windows

open Cert.KernelIdeal Cert.KernelIdeal.Gen Cert.DenseRow Cert.RowBias Cert.Net

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a <;> rfl

/-! ## The windows' block indices, decided over the 50 grid points -/

/-- The three row inputs and the three results move one block of rows per point and stay at column block zero. -/
theorem row_idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_17.index t (0 : Fin 2) = t.val ∧ win0_17.index t (1 : Fin 2) = 0
    ∧ win0_18.index t (0 : Fin 2) = t.val ∧ win0_18.index t (1 : Fin 2) = 0
    ∧ win0_19.index t (0 : Fin 2) = t.val ∧ win0_19.index t (1 : Fin 2) = 0 :=
  (by decide +kernel : ∀ t : Fin grid0.N, _)

theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 1) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 1) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 1) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 1) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 1) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 1) = 0 :=
  (by decide +kernel : ∀ t : Fin grid0.N, _)
theorem idx15 : ∀ t : Fin cfg0.N, win0_15.index t (0 : Fin 2) = 0 ∧ win0_15.index t (1 : Fin 2) = 0 :=
  (by decide +kernel : ∀ t : Fin grid0.N, _)
theorem idx16 : ∀ t : Fin cfg0.N, win0_16.index t (0 : Fin 1) = 0 :=
  (by decide +kernel : ∀ t : Fin grid0.N, _)

/-! ## The arrays as the launch finds them -/

/-- The weights and biases as passed. -/
def weights (c : Dev nD) : Weights :=
  ⟨m ((c : Thread nD τ).loc main_arg4),
   m ((c : Thread nD τ).loc main_arg5),
   m ((c : Thread nD τ).loc main_arg6),
   m ((c : Thread nD τ).loc main_arg7),
   m ((c : Thread nD τ).loc main_arg8),
   m ((c : Thread nD τ).loc main_arg9),
   m ((c : Thread nD τ).loc main_arg10),
   m ((c : Thread nD τ).loc main_arg11),
   m ((c : Thread nD τ).loc main_arg12),
   m ((c : Thread nD τ).loc main_arg13),
   m ((c : Thread nD τ).loc main_arg14),
   m ((c : Thread nD τ).loc main_arg15),
   m ((c : Thread nD τ).loc main_arg16),
   m ((c : Thread nD τ).loc main_arg17)⟩

theorem V_conv19 (c : Dev nD) : (V m c main_v19 : S64x64.Idx → EReal) = m ((c : Thread nD τ).loc main_arg4) := by
  dsimp only [Gen.V, Gen.hostOps0]
  after_results
  rfl
theorem V_conv20 (c : Dev nD) : (V m c main_v20 : S128x64.Idx → EReal) = m ((c : Thread nD τ).loc main_arg6) := by
  dsimp only [Gen.V, Gen.hostOps0]
  after_results
  rfl
theorem V_conv21 (c : Dev nD) : (V m c main_v21 : S64x64.Idx → EReal) = m ((c : Thread nD τ).loc main_arg8) := by
  dsimp only [Gen.V, Gen.hostOps0]
  after_results
  rfl
theorem V_conv22 (c : Dev nD) : (V m c main_v22 : S64x16.Idx → EReal) = m ((c : Thread nD τ).loc main_arg10) := by
  dsimp only [Gen.V, Gen.hostOps0]
  after_results
  rfl
theorem V_conv23 (c : Dev nD) : (V m c main_v23 : S64x16.Idx → EReal) = m ((c : Thread nD τ).loc main_arg12) := by
  dsimp only [Gen.V, Gen.hostOps0]
  after_results
  rfl
theorem V_conv24 (c : Dev nD) : (V m c main_v24 : S16x64.Idx → EReal) = m ((c : Thread nD τ).loc main_arg14) := by
  dsimp only [Gen.V, Gen.hostOps0]
  after_results
  rfl
theorem V_conv25 (c : Dev nD) : (V m c main_v25 : S64x64.Idx → EReal) = m ((c : Thread nD τ).loc main_arg16) := by
  dsimp only [Gen.V, Gen.hostOps0]
  after_results
  rfl

/-! ## A weight or bias window's block is the whole array -/

theorem iblk3_eq (c : Dev nD) (t : Fin cfg0.N) : (iblk m c 3 t : S64x64.Idx → EReal) = (weights m c).wagg := by
  obtain ⟨e0, e1⟩ := idx3 t
  have hz' : (fun a => win0_3.index t a * main_v19.ty.shape.size a) = fun _ => 0 := funext fun a => by
    match a with
    | ⟨0, _⟩ => show win0_3.index t (0 : Fin 2) * 64 = 0; omega
    | ⟨1, _⟩ => show win0_3.index t (1 : Fin 2) * 64 = 0; omega
  exact (Memref.read_access_unit_zero (Elt Ideal) main_v19 hz' (fun a => by rw [congrFun hz' a]; simp) (V m c main_v19)).trans (V_conv19 m c)
theorem iblk4_eq (c : Dev nD) (t : Fin cfg0.N) : (iblk m c 4 t : S64.Idx → EReal) = (weights m c).bagg := by
  have e0 := idx4 t
  have hz' : (fun a => win0_4.index t a * main_arg5.ty.shape.size a) = fun _ => 0 := funext fun a => by
    match a with
    | ⟨0, _⟩ => show win0_4.index t (0 : Fin 1) * 64 = 0; omega
  exact (Memref.read_access_unit_zero (Elt Ideal) main_arg5 hz' (fun a => by rw [congrFun hz' a]; simp) (V m c main_arg5)).trans (V_main_arg5 m c)
theorem iblk5_eq (c : Dev nD) (t : Fin cfg0.N) : (iblk m c 5 t : S128x64.Idx → EReal) = (weights m c).wfus := by
  obtain ⟨e0, e1⟩ := idx5 t
  have hz' : (fun a => win0_5.index t a * main_v20.ty.shape.size a) = fun _ => 0 := funext fun a => by
    match a with
    | ⟨0, _⟩ => show win0_5.index t (0 : Fin 2) * 128 = 0; omega
    | ⟨1, _⟩ => show win0_5.index t (1 : Fin 2) * 64 = 0; omega
  exact (Memref.read_access_unit_zero (Elt Ideal) main_v20 hz' (fun a => by rw [congrFun hz' a]; simp) (V m c main_v20)).trans (V_conv20 m c)
theorem iblk6_eq (c : Dev nD) (t : Fin cfg0.N) : (iblk m c 6 t : S64.Idx → EReal) = (weights m c).bfus := by
  have e0 := idx6 t
  have hz' : (fun a => win0_6.index t a * main_arg7.ty.shape.size a) = fun _ => 0 := funext fun a => by
    match a with
    | ⟨0, _⟩ => show win0_6.index t (0 : Fin 1) * 64 = 0; omega
  exact (Memref.read_access_unit_zero (Elt Ideal) main_arg7 hz' (fun a => by rw [congrFun hz' a]; simp) (V m c main_arg7)).trans (V_main_arg7 m c)
theorem iblk7_eq (c : Dev nD) (t : Fin cfg0.N) : (iblk m c 7 t : S64x64.Idx → EReal) = (weights m c).w1 := by
  obtain ⟨e0, e1⟩ := idx7 t
  have hz' : (fun a => win0_7.index t a * main_v21.ty.shape.size a) = fun _ => 0 := funext fun a => by
    match a with
    | ⟨0, _⟩ => show win0_7.index t (0 : Fin 2) * 64 = 0; omega
    | ⟨1, _⟩ => show win0_7.index t (1 : Fin 2) * 64 = 0; omega
  exact (Memref.read_access_unit_zero (Elt Ideal) main_v21 hz' (fun a => by rw [congrFun hz' a]; simp) (V m c main_v21)).trans (V_conv21 m c)
theorem iblk8_eq (c : Dev nD) (t : Fin cfg0.N) : (iblk m c 8 t : S64.Idx → EReal) = (weights m c).b1 := by
  have e0 := idx8 t
  have hz' : (fun a => win0_8.index t a * main_arg9.ty.shape.size a) = fun _ => 0 := funext fun a => by
    match a with
    | ⟨0, _⟩ => show win0_8.index t (0 : Fin 1) * 64 = 0; omega
  exact (Memref.read_access_unit_zero (Elt Ideal) main_arg9 hz' (fun a => by rw [congrFun hz' a]; simp) (V m c main_arg9)).trans (V_main_arg9 m c)
theorem iblk9_eq (c : Dev nD) (t : Fin cfg0.N) : (iblk m c 9 t : S64x16.Idx → EReal) = (weights m c).w21 := by
  obtain ⟨e0, e1⟩ := idx9 t
  have hz' : (fun a => win0_9.index t a * main_v22.ty.shape.size a) = fun _ => 0 := funext fun a => by
    match a with
    | ⟨0, _⟩ => show win0_9.index t (0 : Fin 2) * 64 = 0; omega
    | ⟨1, _⟩ => show win0_9.index t (1 : Fin 2) * 16 = 0; omega
  exact (Memref.read_access_unit_zero (Elt Ideal) main_v22 hz' (fun a => by rw [congrFun hz' a]; simp) (V m c main_v22)).trans (V_conv22 m c)
theorem iblk10_eq (c : Dev nD) (t : Fin cfg0.N) : (iblk m c 10 t : S16.Idx → EReal) = (weights m c).b21 := by
  have e0 := idx10 t
  have hz' : (fun a => win0_10.index t a * main_arg11.ty.shape.size a) = fun _ => 0 := funext fun a => by
    match a with
    | ⟨0, _⟩ => show win0_10.index t (0 : Fin 1) * 16 = 0; omega
  exact (Memref.read_access_unit_zero (Elt Ideal) main_arg11 hz' (fun a => by rw [congrFun hz' a]; simp) (V m c main_arg11)).trans (V_main_arg11 m c)
theorem iblk11_eq (c : Dev nD) (t : Fin cfg0.N) : (iblk m c 11 t : S64x16.Idx → EReal) = (weights m c).w22 := by
  obtain ⟨e0, e1⟩ := idx11 t
  have hz' : (fun a => win0_11.index t a * main_v23.ty.shape.size a) = fun _ => 0 := funext fun a => by
    match a with
    | ⟨0, _⟩ => show win0_11.index t (0 : Fin 2) * 64 = 0; omega
    | ⟨1, _⟩ => show win0_11.index t (1 : Fin 2) * 16 = 0; omega
  exact (Memref.read_access_unit_zero (Elt Ideal) main_v23 hz' (fun a => by rw [congrFun hz' a]; simp) (V m c main_v23)).trans (V_conv23 m c)
theorem iblk12_eq (c : Dev nD) (t : Fin cfg0.N) : (iblk m c 12 t : S16.Idx → EReal) = (weights m c).b22 := by
  have e0 := idx12 t
  have hz' : (fun a => win0_12.index t a * main_arg13.ty.shape.size a) = fun _ => 0 := funext fun a => by
    match a with
    | ⟨0, _⟩ => show win0_12.index t (0 : Fin 1) * 16 = 0; omega
  exact (Memref.read_access_unit_zero (Elt Ideal) main_arg13 hz' (fun a => by rw [congrFun hz' a]; simp) (V m c main_arg13)).trans (V_main_arg13 m c)
theorem iblk13_eq (c : Dev nD) (t : Fin cfg0.N) : (iblk m c 13 t : S16x64.Idx → EReal) = (weights m c).w3 := by
  obtain ⟨e0, e1⟩ := idx13 t
  have hz' : (fun a => win0_13.index t a * main_v24.ty.shape.size a) = fun _ => 0 := funext fun a => by
    match a with
    | ⟨0, _⟩ => show win0_13.index t (0 : Fin 2) * 16 = 0; omega
    | ⟨1, _⟩ => show win0_13.index t (1 : Fin 2) * 64 = 0; omega
  exact (Memref.read_access_unit_zero (Elt Ideal) main_v24 hz' (fun a => by rw [congrFun hz' a]; simp) (V m c main_v24)).trans (V_conv24 m c)
theorem iblk14_eq (c : Dev nD) (t : Fin cfg0.N) : (iblk m c 14 t : S64.Idx → EReal) = (weights m c).b3 := by
  have e0 := idx14 t
  have hz' : (fun a => win0_14.index t a * main_arg15.ty.shape.size a) = fun _ => 0 := funext fun a => by
    match a with
    | ⟨0, _⟩ => show win0_14.index t (0 : Fin 1) * 64 = 0; omega
  exact (Memref.read_access_unit_zero (Elt Ideal) main_arg15 hz' (fun a => by rw [congrFun hz' a]; simp) (V m c main_arg15)).trans (V_main_arg15 m c)
theorem iblk15_eq (c : Dev nD) (t : Fin cfg0.N) : (iblk m c 15 t : S64x64.Idx → EReal) = (weights m c).w4 := by
  obtain ⟨e0, e1⟩ := idx15 t
  have hz' : (fun a => win0_15.index t a * main_v25.ty.shape.size a) = fun _ => 0 := funext fun a => by
    match a with
    | ⟨0, _⟩ => show win0_15.index t (0 : Fin 2) * 64 = 0; omega
    | ⟨1, _⟩ => show win0_15.index t (1 : Fin 2) * 64 = 0; omega
  exact (Memref.read_access_unit_zero (Elt Ideal) main_v25 hz' (fun a => by rw [congrFun hz' a]; simp) (V m c main_v25)).trans (V_conv25 m c)
theorem iblk16_eq (c : Dev nD) (t : Fin cfg0.N) : (iblk m c 16 t : S64.Idx → EReal) = (weights m c).b4 := by
  have e0 := idx16 t
  have hz' : (fun a => win0_16.index t a * main_arg17.ty.shape.size a) = fun _ => 0 := funext fun a => by
    match a with
    | ⟨0, _⟩ => show win0_16.index t (0 : Fin 1) * 64 = 0; omega
  exact (Memref.read_access_unit_zero (Elt Ideal) main_arg17 hz' (fun a => by rw [congrFun hz' a]; simp) (V m c main_arg17)).trans (V_main_arg17 m c)

/-! ## A row window's block at point `t` is rows `2000·t …` of its array -/

/-- The row of the whole array that row `p` of point `t`'s block is. -/
def rowOf (t : Fin cfg0.N) (p : Fin 2000) : Fin 100000 :=
  ⟨2000 * t.val + p.val, by have h : t.val < 50 := lt_of_lt_of_eq t.isLt N_0; have := p.isLt; omega⟩

theorem emb0 (t : Fin cfg0.N) (p : Fin 2000) (k : Fin 64) :
    ((cfg0.win 0).blk t).view.emb (ix2 p k) = ix2 (rowOf t p) k := by
  obtain ⟨e0_0, e0_1, e1_0, e1_1, e2_0, e2_1, e17_0, e17_1, e18_0, e18_1, e19_0, e19_1⟩ := row_idx t
  funext a
  apply Fin.ext
  match a with
  | ⟨0, _⟩ => show win0_0.index t (0 : Fin 2) * 2000 + 1 * p.val = 2000 * t.val + p.val; omega
  | ⟨1, _⟩ => show win0_0.index t (1 : Fin 2) * 64 + 1 * k.val = k.val; omega

theorem emb1 (t : Fin cfg0.N) (p : Fin 2000) (k : Fin 64) :
    ((cfg0.win 1).blk t).view.emb (ix2 p k) = ix2 (rowOf t p) k := by
  obtain ⟨e0_0, e0_1, e1_0, e1_1, e2_0, e2_1, e17_0, e17_1, e18_0, e18_1, e19_0, e19_1⟩ := row_idx t
  funext a
  apply Fin.ext
  match a with
  | ⟨0, _⟩ => show win0_1.index t (0 : Fin 2) * 2000 + 1 * p.val = 2000 * t.val + p.val; omega
  | ⟨1, _⟩ => show win0_1.index t (1 : Fin 2) * 64 + 1 * k.val = k.val; omega

theorem emb2 (t : Fin cfg0.N) (p : Fin 2000) (k : Fin 16) :
    ((cfg0.win 2).blk t).view.emb (ix2 p k) = ix2 (rowOf t p) k := by
  obtain ⟨e0_0, e0_1, e1_0, e1_1, e2_0, e2_1, e17_0, e17_1, e18_0, e18_1, e19_0, e19_1⟩ := row_idx t
  funext a
  apply Fin.ext
  match a with
  | ⟨0, _⟩ => show win0_2.index t (0 : Fin 2) * 2000 + 1 * p.val = 2000 * t.val + p.val; omega
  | ⟨1, _⟩ => show win0_2.index t (1 : Fin 2) * 16 + 1 * k.val = k.val; omega

theorem emb17 (t : Fin cfg0.N) (p : Fin 2000) (k : Fin 64) :
    ((cfg0.win 17).blk t).view.emb (ix2 p k) = ix2 (rowOf t p) k := by
  obtain ⟨e0_0, e0_1, e1_0, e1_1, e2_0, e2_1, e17_0, e17_1, e18_0, e18_1, e19_0, e19_1⟩ := row_idx t
  funext a
  apply Fin.ext
  match a with
  | ⟨0, _⟩ => show win0_17.index t (0 : Fin 2) * 2000 + 1 * p.val = 2000 * t.val + p.val; omega
  | ⟨1, _⟩ => show win0_17.index t (1 : Fin 2) * 64 + 1 * k.val = k.val; omega

theorem emb18 (t : Fin cfg0.N) (p : Fin 2000) (k : Fin 16) :
    ((cfg0.win 18).blk t).view.emb (ix2 p k) = ix2 (rowOf t p) k := by
  obtain ⟨e0_0, e0_1, e1_0, e1_1, e2_0, e2_1, e17_0, e17_1, e18_0, e18_1, e19_0, e19_1⟩ := row_idx t
  funext a
  apply Fin.ext
  match a with
  | ⟨0, _⟩ => show win0_18.index t (0 : Fin 2) * 2000 + 1 * p.val = 2000 * t.val + p.val; omega
  | ⟨1, _⟩ => show win0_18.index t (1 : Fin 2) * 16 + 1 * k.val = k.val; omega

theorem emb19 (t : Fin cfg0.N) (p : Fin 2000) (k : Fin 16) :
    ((cfg0.win 19).blk t).view.emb (ix2 p k) = ix2 (rowOf t p) k := by
  obtain ⟨e0_0, e0_1, e1_0, e1_1, e2_0, e2_1, e17_0, e17_1, e18_0, e18_1, e19_0, e19_1⟩ := row_idx t
  funext a
  apply Fin.ext
  match a with
  | ⟨0, _⟩ => show win0_19.index t (0 : Fin 2) * 2000 + 1 * p.val = 2000 * t.val + p.val; omega
  | ⟨1, _⟩ => show win0_19.index t (1 : Fin 2) * 16 + 1 * k.val = k.val; omega

/-! ## Reading any array through a row window's block -/

theorem read0 (t : Fin cfg0.N) (G : Arr 100000 64) (p : Fin 2000) (k : Fin 64) :
    (((cfg0.win 0).blk t).view.read (Elt Ideal) G : Arr 2000 64) (ix2 p k) = G (ix2 (rowOf t p) k) := by
  rw [View.read_apply, emb0 t p k]
  rfl

theorem read1 (t : Fin cfg0.N) (G : Arr 100000 64) (p : Fin 2000) (k : Fin 64) :
    (((cfg0.win 1).blk t).view.read (Elt Ideal) G : Arr 2000 64) (ix2 p k) = G (ix2 (rowOf t p) k) := by
  rw [View.read_apply, emb1 t p k]
  rfl

theorem read2 (t : Fin cfg0.N) (G : Arr 100000 16) (p : Fin 2000) (k : Fin 16) :
    (((cfg0.win 2).blk t).view.read (Elt Ideal) G : Arr 2000 16) (ix2 p k) = G (ix2 (rowOf t p) k) := by
  rw [View.read_apply, emb2 t p k]
  rfl

theorem read17 (t : Fin cfg0.N) (G : Arr 100000 64) (p : Fin 2000) (k : Fin 64) :
    (((cfg0.win 17).blk t).view.read (Elt Ideal) G : Arr 2000 64) (ix2 p k) = G (ix2 (rowOf t p) k) := by
  rw [View.read_apply, emb17 t p k]
  rfl

theorem read18 (t : Fin cfg0.N) (G : Arr 100000 16) (p : Fin 2000) (k : Fin 16) :
    (((cfg0.win 18).blk t).view.read (Elt Ideal) G : Arr 2000 16) (ix2 p k) = G (ix2 (rowOf t p) k) := by
  rw [View.read_apply, emb18 t p k]
  rfl

theorem read19 (t : Fin cfg0.N) (G : Arr 100000 16) (p : Fin 2000) (k : Fin 16) :
    (((cfg0.win 19).blk t).view.read (Elt Ideal) G : Arr 2000 16) (ix2 p k) = G (ix2 (rowOf t p) k) := by
  rw [View.read_apply, emb19 t p k]
  rfl

/-! ## The three row inputs -/

/-- The neighbour average as the launch finds it: what the host operations before the launch leave in the second
    window's array.  Kept as one name; nothing here looks inside it. -/
def navg (c : Dev nD) : Arr 100000 64 := V m c (Pipeline.arrRef spec0 1)

theorem iblk0_at (c : Dev nD) (t : Fin cfg0.N) (p : Fin 2000) (k : Fin 64) :
    (iblk m c 0 t : Arr 2000 64) (ix2 p k) = (m ((c : Thread nD τ).loc main_arg0) : Arr 100000 64) (ix2 (rowOf t p) k) := by
  unfold iblk
  rw [read0 t (V m c (Pipeline.arrRef spec0 0)) p k]
  exact congrFun (V_main_arg0 m c) _

theorem iblk1_at (c : Dev nD) (t : Fin cfg0.N) (p : Fin 2000) (k : Fin 64) :
    (iblk m c 1 t : Arr 2000 64) (ix2 p k) = navg m c (ix2 (rowOf t p) k) := by
  unfold iblk navg
  rw [read1 t (V m c (Pipeline.arrRef spec0 1)) p k]

theorem iblk2_at (c : Dev nD) (t : Fin cfg0.N) (p : Fin 2000) (k : Fin 16) :
    (iblk m c 2 t : Arr 2000 16) (ix2 p k) = (m ((c : Thread nD τ).loc main_arg3) : Arr 100000 16) (ix2 (rowOf t p) k) := by
  unfold iblk
  rw [read2 t (V m c (Pipeline.arrRef spec0 2)) p k]
  exact congrFun (V_main_arg3 m c) _

theorem iblk0_rows (c : Dev nD) (t : Fin cfg0.N) (p : Fin 2000) :
    SameRow (iblk m c 0 t : Arr 2000 64) (m ((c : Thread nD τ).loc main_arg0)) p (rowOf t p) := fun k => iblk0_at m c t p k

theorem iblk1_rows (c : Dev nD) (t : Fin cfg0.N) (p : Fin 2000) :
    SameRow (iblk m c 1 t : Arr 2000 64) (navg m c) p (rowOf t p) := fun k => iblk1_at m c t p k

theorem iblk2_rows (c : Dev nD) (t : Fin cfg0.N) (p : Fin 2000) :
    SameRow (iblk m c 2 t : Arr 2000 16) (m ((c : Thread nD τ).loc main_arg3)) p (rowOf t p) := fun k => iblk2_at m c t p k

end Cert.KernelIdeal.Windows

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«142285_j11828339933907_1_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.Body.lean ====
/-
  THE KERNEL'S BODY IS THE NETWORK ON A BLOCK OF 2000 ROWS, at the ideal values.

  The body's arithmetic is four pure terms of the blocks it loads (the generated skeleton's `k0_pay1` … `k0_pay4`): the
  hidden rows, the latent mean, the latent log-variance, the reconstruction.  At the ideal values a change of float format
  is the identity, each of its matrix products goes into a zero accumulator and carries the plain product's dimension
  record, each bias is a vector cast to one row and broadcast over the rows, and each rectifier is the maximum with the
  zero word splat over the block.  So each term is the corresponding stage of the network (Network.lean) on 2000 rows:
  `pay1_eq` (the hidden rows `enc`), `pay2_eq` and `pay3_eq` (one dense layer each), `pay4_eq` (the reconstruction
  `recon`, whose latent sample `μ + e · exp(½ · s)` is spelt with the same word for one half).
-/
import proofs.«142285_j11828339933907_1_alg».proof.Proof.Gen.KernelIdeal.Skeleton
import proofs.«142285_j11828339933907_1_alg».proof.Proof.LibPlainDot
import proofs.«142285_j11828339933907_1_alg».proof.Proof.Network

noncomputable section

open scoped BigOperators

namespace Cert.KernelIdeal.Body

open Cert.KernelIdeal Cert.KernelIdeal.Gen Idealize.ShloMosaic Idealize.ShloMosaic.ValueIdx
open Cert.DenseRow Cert.RowBias Cert.Net

/-! ## The four products' dimension records are the plain product's -/

theorem dims_64_64 : dot_S2000x64_S64x64_S2000x64_1_0_0_1_n_n = DotDims.plain 2000 64 64 := rfl
theorem dims_128_64 : dot_S2000x128_S128x64_S2000x64_1_0_0_1_n_n = DotDims.plain 2000 128 64 := rfl
theorem dims_64_16 : dot_S2000x64_S64x16_S2000x16_1_0_0_1_n_n = DotDims.plain 2000 64 16 := rfl
theorem dims_16_64 : dot_S2000x16_S16x64_S2000x64_1_0_0_1_n_n = DotDims.plain 2000 16 64 := rfl

/-- Narrowing the float format changes nothing at the ideal values. -/
theorem narrow_id {s : Shape} {φ ψ : FTy} (y : FVec Ideal s φ) (h : ψ.bits < φ.bits) : truncf ψ y h = y := rfl

/-! ## The payloads -/

/-- The hidden rows of the block. -/
theorem pay1_eq (θ : Weights) (x0 x1 : Arr 2000 64) :
    k0_pay1 (F := Ideal) x0 x1 θ.wagg θ.bagg θ.wfus θ.bfus θ.w1 θ.b1 = enc θ x0 x1 := by
  unfold k0_pay1 enc
  dsimp only
  rw [dims_64_64, dims_128_64]
  simp only [narrow_id]
  rw [shapeCast_self x1, PlainDot.klayer, kact, concatArr (show 128 = 64 + 64 from rfl), PlainDot.klayer, kact,
    PlainDot.klayer, kact]

/-- The latent mean: one dense layer of the hidden rows. -/
theorem pay2_eq (θ : Weights) (h : Arr 2000 64) : k0_pay2 (F := Ideal) h θ.w21 θ.b21 = layerArr h θ.w21 θ.b21 := by
  unfold k0_pay2
  dsimp only
  rw [dims_64_16, PlainDot.klayer]

/-- The latent log-variance: one dense layer of the hidden rows. -/
theorem pay3_eq (θ : Weights) (h : Arr 2000 64) : k0_pay3 (F := Ideal) h θ.w22 θ.b22 = layerArr h θ.w22 θ.b22 := by
  unfold k0_pay3
  dsimp only
  rw [dims_64_16, PlainDot.klayer]

/-- The reconstruction of the block. -/
theorem pay4_eq (θ : Weights) (x0 x1 : Arr 2000 64) (e : Arr 2000 16) :
    k0_pay4 (F := Ideal) e (enc θ x0 x1) θ.w21 θ.b21 θ.w22 θ.b22 θ.w3 θ.b3 θ.w4 θ.b4 = recon θ x0 x1 e := by
  unfold k0_pay4
  dsimp only
  rw [pay2_eq, pay3_eq, dims_16_64, dims_64_64]
  simp only [narrow_id]
  rw [PlainDot.klayer, kact, PlainDot.klayer]
  rfl

end Cert.KernelIdeal.Body

end
-- ==== Proof.Flushed.lean ====
/-
  WHAT EACH GRID POINT WRITES BACK, at the ideal values.

  At point `t` the body's three stores hold the reconstruction, the latent mean and the latent log-variance computed from the
  point's blocks: the weight and bias blocks are the arrays as passed, and the body's terms are the network on a block of
  2000 rows (Body.lean).  Row `p` of each input block is row `2000·t + p` of the input, and each of the network's output
  rows depends on the same input row only (Network.lean); so what the point writes back is block `t` of the network's
  result on ALL rows (`flushed17_eq`, `flushed18_eq`, `flushed19_eq`), of the features, the neighbour average `navg` and the noise.
-/
import proofs.«142285_j11828339933907_1_alg».proof.Proof.Windows
import proofs.«142285_j11828339933907_1_alg».proof.Proof.Body

noncomputable section

open Idealize.ShloMosaic Idealize.ShloMosaic.TcCoe Idealize.SL.Sem Idealize.ShloMosaic.ValueIdx
open Idealize.ShloMosaic.Pipeline (Dat)

namespace Cert.KernelIdeal.Flushed

open Cert.KernelIdeal Cert.KernelIdeal.Gen Cert.KernelIdeal.Value Cert.DenseRow Cert.RowBias Cert.Net
open Cert.KernelIdeal.Body Cert.KernelIdeal.Windows

variable (m : (ℓ : Loc nD τ sig) → Buf (Elt Ideal) ℓ)

theorem flushed18_eq (c : Dev nD) (t : Fin cfg0.N) :
    (dats m 0 c).flushed 18 t = ((cfg0.win 18).blk t).view.read (Elt Ideal) (mean (weights m c) (m ((c : Thread nD τ).loc main_arg0)) (navg m c)) := by
  rw [flushed18 m c t]
  unfold out0_18
  rw [View.canon_unit_zero hz2]
  simp only [View.ld_unit_zero (S := S2000x64) hz2,
    View.ld_unit_zero (S := S2000x16) hz2,
    View.ld_unit_zero (S := S64x64) hz2,
    View.ld_unit_zero (S := S128x64) hz2,
    View.ld_unit_zero (S := S64x16) hz2,
    View.ld_unit_zero (S := S16x64) hz2,
    View.ld_unit_zero (S := S64) hz1,
    View.ld_unit_zero (S := S16) hz1]
  rw [iblk3_eq m c t, iblk4_eq m c t, iblk5_eq m c t, iblk6_eq m c t, iblk7_eq m c t, iblk8_eq m c t, iblk9_eq m c t, iblk10_eq m c t]
  rw [pay1_eq (weights m c) (iblk m c 0 t) (iblk m c 1 t), pay2_eq]
  funext j
  obtain ⟨p, k, rfl⟩ : ∃ (p : Fin 2000) (k : Fin 16), j = ix2 p k := ⟨j 0, j 1, eq_ix2 j⟩
  rw [read18 t (mean (weights m c) (m ((c : Thread nD τ).loc main_arg0)) (navg m c)) p k]
  exact mean_rows (weights m c) (iblk0_rows m c t p) (iblk1_rows m c t p) k

theorem flushed19_eq (c : Dev nD) (t : Fin cfg0.N) :
    (dats m 0 c).flushed 19 t = ((cfg0.win 19).blk t).view.read (Elt Ideal) (logvar (weights m c) (m ((c : Thread nD τ).loc main_arg0)) (navg m c)) := by
  rw [flushed19 m c t]
  unfold out0_19
  rw [View.canon_unit_zero hz2]
  simp only [View.ld_unit_zero (S := S2000x64) hz2,
    View.ld_unit_zero (S := S2000x16) hz2,
    View.ld_unit_zero (S := S64x64) hz2,
    View.ld_unit_zero (S := S128x64) hz2,
    View.ld_unit_zero (S := S64x16) hz2,
    View.ld_unit_zero (S := S16x64) hz2,
    View.ld_unit_zero (S := S64) hz1,
    View.ld_unit_zero (S := S16) hz1]
  rw [iblk3_eq m c t, iblk4_eq m c t, iblk5_eq m c t, iblk6_eq m c t, iblk7_eq m c t, iblk8_eq m c t, iblk11_eq m c t, iblk12_eq m c t]
  rw [pay1_eq (weights m c) (iblk m c 0 t) (iblk m c 1 t), pay3_eq]
  funext j
  obtain ⟨p, k, rfl⟩ : ∃ (p : Fin 2000) (k : Fin 16), j = ix2 p k := ⟨j 0, j 1, eq_ix2 j⟩
  rw [read19 t (logvar (weights m c) (m ((c : Thread nD τ).loc main_arg0)) (navg m c)) p k]
  exact logvar_rows (weights m c) (iblk0_rows m c t p) (iblk1_rows m c t p) k

theorem flushed17_eq (c : Dev nD) (t : Fin cfg0.N) :
    (dats m 0 c).flushed 17 t = ((cfg0.win 17).blk t).view.read (Elt Ideal) (recon (weights m c) (m ((c : Thread nD τ).loc main_arg0)) (navg m c) (m ((c : Thread nD τ).loc main_arg3))) := by
  rw [flushed17 m c t]
  unfold out0_17
  rw [View.canon_unit_zero hz2]
  simp only [View.ld_unit_zero (S := S2000x64) hz2,
    View.ld_unit_zero (S := S2000x16) hz2,
    View.ld_unit_zero (S := S64x64) hz2,
    View.ld_unit_zero (S := S128x64) hz2,
    View.ld_unit_zero (S := S64x16) hz2,
    View.ld_unit_zero (S := S16x64) hz2,
    View.ld_unit_zero (S := S64) hz1,
    View.ld_unit_zero (S := S16) hz1]
  rw [iblk3_eq m c t, iblk4_eq m c t, iblk5_eq m c t, iblk6_eq m c t, iblk7_eq m c t, iblk8_eq m c t, iblk9_eq m c t, iblk10_eq m c t,
    iblk11_eq m c t, iblk12_eq m c t, iblk13_eq m c t, iblk14_eq m c t, iblk15_eq m c t, iblk16_eq m c t]
  rw [pay1_eq (weights m c) (iblk m c 0 t) (iblk m c 1 t), pay4_eq (weights m c) (iblk m c 0 t) (iblk m c 1 t) (iblk m c 2 t)]
  funext j
  obtain ⟨p, k, rfl⟩ : ∃ (p : Fin 2000) (k : Fin 64), j = ix2 p k := ⟨j 0, j 1, eq_ix2 j⟩
  rw [read17 t (recon (weights m c) (m ((c : Thread nD τ).loc main_arg0)) (navg m c) (m ((c : Thread nD τ).loc main_arg3))) p k]
  exact recon_rows (weights m c) (iblk0_rows m c t p) (iblk1_rows m c t p) (iblk2_rows m c t p) k

end Cert.KernelIdeal.Flushed

end
-- ==== Proof.Cover.lean ====
/-
  THE 50 BLOCKS COVER EACH RESULT ARRAY.

  A result array has 100000 rows and the kernel writes it back in blocks of 2000 rows, the block of point `t` being rows
  `2000·t … 2000·t + 1999` and all the columns.  An index is in point `t`'s block exactly when each of its coordinates is in
  the block's range on that axis (`mem_blk17` …).  So row `r` is in the block of point `r / 2000`, which is below 50 because
  `r` is below 100000 (`cover17`, `cover18`, `cover19`); every point writes its block back.
-/
import proofs.«142285_j11828339933907_1_alg».proof.Proof.Windows

noncomputable section

open Idealize.ShloMosaic Idealize.ShloMosaic.TcCoe Idealize.SL.Sem Idealize.ShloMosaic.ValueIdx

namespace Cert.KernelIdeal.Cover

open Cert.KernelIdeal Cert.KernelIdeal.Gen Cert.KernelIdeal.Windows

theorem mem_blk17 (t : Fin cfg0.N) (i : S100000x64.Idx) :
    i ∈ ((cfg0.win 17).blk t).view.set ↔ ∀ a : Fin 2, win0_17.index t a * S2000x64.size a ≤ (i a).val ∧ (i a).val < win0_17.index t a * S2000x64.size a + S2000x64.size a := by
  show i ∈ ((View.whole main_v26_0).slice (win0_17.rect t)).set ↔ _
  rw [View.set_slice_whole, Rect.mem_set_unit]
  exact Iff.rfl

theorem mem_blk18 (t : Fin cfg0.N) (i : S100000x16.Idx) :
    i ∈ ((cfg0.win 18).blk t).view.set ↔ ∀ a : Fin 2, win0_18.index t a * S2000x16.size a ≤ (i a).val ∧ (i a).val < win0_18.index t a * S2000x16.size a + S2000x16.size a := by
  show i ∈ ((View.whole main_v26_1).slice (win0_18.rect t)).set ↔ _
  rw [View.set_slice_whole, Rect.mem_set_unit]
  exact Iff.rfl

theorem mem_blk19 (t : Fin cfg0.N) (i : S100000x16.Idx) :
    i ∈ ((cfg0.win 19).blk t).view.set ↔ ∀ a : Fin 2, win0_19.index t a * S2000x16.size a ≤ (i a).val ∧ (i a).val < win0_19.index t a * S2000x16.size a + S2000x16.size a := by
  show i ∈ ((View.whole main_v26_2).slice (win0_19.rect t)).set ↔ _
  rw [View.set_slice_whole, Rect.mem_set_unit]
  exact Iff.rfl

theorem cover17 (i : S100000x64.Idx) : ∃ t : Fin cfg0.N, (cfg0.win 17).flush t = true ∧ i ∈ ((cfg0.win 17).blk t).view.set := by
  have hi0 : (i 0).val < 100000 := (i 0).isLt
  have hi1 : (i 1).val < 64 := (i 1).isLt
  have hN : cfg0.N = 50 := N_0
  refine ⟨⟨(i 0).val / 2000, by rw [hN]; omega⟩, flush0_17 _, ?_⟩
  obtain ⟨-, -, -, -, -, -, e17_0, e17_1, e18_0, e18_1, e19_0, e19_1⟩ := row_idx ⟨(i 0).val / 2000, by rw [hN]; omega⟩
  rw [mem_blk17]
  intro a
  match a with
  | ⟨0, _⟩ =>
    show win0_17.index ⟨(i 0).val / 2000, _⟩ (0 : Fin 2) * 2000 ≤ (i 0).val ∧ (i 0).val < win0_17.index ⟨(i 0).val / 2000, _⟩ (0 : Fin 2) * 2000 + 2000
    rw [e17_0]
    show (i 0).val / 2000 * 2000 ≤ (i 0).val ∧ (i 0).val < (i 0).val / 2000 * 2000 + 2000
    omega
  | ⟨1, _⟩ =>
    show win0_17.index ⟨(i 0).val / 2000, _⟩ (1 : Fin 2) * 64 ≤ (i 1).val ∧ (i 1).val < win0_17.index ⟨(i 0).val / 2000, _⟩ (1 : Fin 2) * 64 + 64
    rw [e17_1]
    omega

theorem cover18 (i : S100000x16.Idx) : ∃ t : Fin cfg0.N, (cfg0.win 18).flush t = true ∧ i ∈ ((cfg0.win 18).blk t).view.set := by
  have hi0 : (i 0).val < 100000 := (i 0).isLt
  have hi1 : (i 1).val < 16 := (i 1).isLt
  have hN : cfg0.N = 50 := N_0
  refine ⟨⟨(i 0).val / 2000, by rw [hN]; omega⟩, flush0_18 _, ?_⟩
  obtain ⟨-, -, -, -, -, -, e17_0, e17_1, e18_0, e18_1, e19_0, e19_1⟩ := row_idx ⟨(i 0).val / 2000, by rw [hN]; omega⟩
  rw [mem_blk18]
  intro a
  match a with
  | ⟨0, _⟩ =>
    show win0_18.index ⟨(i 0).val / 2000, _⟩ (0 : Fin 2) * 2000 ≤ (i 0).val ∧ (i 0).val < win0_18.index ⟨(i 0).val / 2000, _⟩ (0 : Fin 2) * 2000 + 2000
    rw [e18_0]
    show (i 0).val / 2000 * 2000 ≤ (i 0).val ∧ (i 0).val < (i 0).val / 2000 * 2000 + 2000
    omega
  | ⟨1, _⟩ =>
    show win0_18.index ⟨(i 0).val / 2000, _⟩ (1 : Fin 2) * 16 ≤ (i 1).val ∧ (i 1).val < win0_18.index ⟨(i 0).val / 2000, _⟩ (1 : Fin 2) * 16 + 16
    rw [e18_1]
    omega

theorem cover19 (i : S100000x16.Idx) : ∃ t : Fin cfg0.N, (cfg0.win 19).flush t = true ∧ i ∈ ((cfg0.win 19).blk t).view.set := by
  have hi0 : (i 0).val < 100000 := (i 0).isLt
  have hi1 : (i 1).val < 16 := (i 1).isLt
  have hN : cfg0.N = 50 := N_0
  refine ⟨⟨(i 0).val / 2000, by rw [hN]; omega⟩, flush0_19 _, ?_⟩
  obtain ⟨-, -, -, -, -, -, e17_0, e17_1, e18_0, e18_1, e19_0, e19_1⟩ := row_idx ⟨(i 0).val / 2000, by rw [hN]; omega⟩
  rw [mem_blk19]
  intro a
  match a with
  | ⟨0, _⟩ =>
    show win0_19.index ⟨(i 0).val / 2000, _⟩ (0 : Fin 2) * 2000 ≤ (i 0).val ∧ (i 0).val < win0_19.index ⟨(i 0).val / 2000, _⟩ (0 : Fin 2) * 2000 + 2000
    rw [e19_0]
    show (i 0).val / 2000 * 2000 ≤ (i 0).val ∧ (i 0).val < (i 0).val / 2000 * 2000 + 2000
    omega
  | ⟨1, _⟩ =>
    show win0_19.index ⟨(i 0).val / 2000, _⟩ (1 : Fin 2) * 16 ≤ (i 1).val ∧ (i 1).val < win0_19.index ⟨(i 0).val / 2000, _⟩ (1 : Fin 2) * 16 + 16
    rw [e19_1]
    omega

end Cert.KernelIdeal.Cover

end
-- ==== Proof.Blocks.lean ====
/-
  THE KERNEL'S RESULT ARRAYS ARE THE NETWORK ON ALL ROWS, at the ideal values.

  Every grid point writes back block `t` of the network's result on all rows (Flushed.lean), and the 50 blocks cover each
  result array (Cover.lean).  So after the run the three result arrays hold the network's reconstruction, latent mean and
  latent log-variance of all 100000 rows, of the features, the neighbour average `navg` the host operations leave, and the
  noise (`final17`, `final18`, `final19`), and the arguments are as passed (`run`).
-/
import proofs.«142285_j11828339933907_1_alg».proof.Proof.Flushed
import proofs.«142285_j11828339933907_1_alg».proof.Proof.Cover

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Value Cert.Net
open Cert.KernelIdeal.Windows Cert.KernelIdeal.Flushed Cert.KernelIdeal.Cover

variable (m : (ℓ : Loc nD τ sig) → Buf (Elt Ideal) ℓ) (ρ : Dev nD → PrngReg)

theorem final17 (c : Dev nD) : (dats m 0 c).arrAt 17 cfg0.N = recon (weights m c) (m ((c : Thread nD τ).loc main_arg0)) (navg m c) (m ((c : Thread nD τ).loc main_arg3)) :=
  (dats m 0 c).arrAt_eq_of_cover 17 _ (fun t _ => flushed17_eq m c t) cover17

theorem final18 (c : Dev nD) : (dats m 0 c).arrAt 18 cfg0.N = mean (weights m c) (m ((c : Thread nD τ).loc main_arg0)) (navg m c) :=
  (dats m 0 c).arrAt_eq_of_cover 18 _ (fun t _ => flushed18_eq m c t) cover18

theorem final19 (c : Dev nD) : (dats m 0 c).arrAt 19 cfg0.N = logvar (weights m c) (m ((c : Thread nD τ).loc main_arg0)) (navg m c) :=
  (dats m 0 c).arrAt_eq_of_cover 19 _ (fun t _ => flushed19_eq m c t) cover19

/-- Every weakly fair execution of the kernel's program ends with the three results at the network's reconstruction, latent
    mean and latent log-variance of all rows, and the arguments unchanged. -/
theorem run : θ_run defs (onTc (τ := τ) (main (F := Ideal))) ⟨m, fun _ => 0, ρ⟩ fun r => ∀ c : Dev nD,
      r.2.mem ((c : Thread nD τ).loc main_v26_0) = recon (weights m c) (m ((c : Thread nD τ).loc main_arg0)) (navg m c) (m ((c : Thread nD τ).loc main_arg3))
      ∧ r.2.mem ((c : Thread nD τ).loc main_v26_1) = mean (weights m c) (m ((c : Thread nD τ).loc main_arg0)) (navg m c)
      ∧ r.2.mem ((c : Thread nD τ).loc main_v26_2) = logvar (weights m c) (m ((c : Thread nD τ).loc main_arg0)) (navg m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun r h c => ⟨(h c).1.trans (final17 m c), (h c).2.1.trans (final18 m c),
      (h c).2.2.1.trans (final19 m c), (h c).2.2.2⟩)
    (run_blocks m ρ)

end Cert.KernelIdeal.Blocks

end
-- ==== Proof.Host.lean ====
/-
  THE REFERENCE IS THE NETWORK ON ALL 100000 ROWS, at the ideal values.

  The reference's operations after the neighbour average are read here as whole arrays, over the generated stages
  `val_main_vN` (one per operation).  Each dense layer is a `dot_general` carrying the plain product's dimension record
  plus the bias broadcast to one row and then over the rows; each rectifier is the maximum with the zero constant broadcast
  from a scalar; the features and the neighbourhood encoding are joined along the columns.  So the hidden rows, the latent
  mean and the latent log-variance are the network's (Network.lean) at 100000 rows, of the features `x0` and the neighbour
  average `val_main_v18 x0 x1 x2` (`enc_eq`, `mean_eq`, `logvar_eq`).  The latent sample multiplies by the same word for
  one half.  The last four operations spell the logistic function out — negate, exponential, add one, divide one by it —
  and that expression IS the logistic function on every extended real, the word `0x3F800000` being the number one
  (`recon_eq`).  The neighbour average itself is never opened: both programs compute it by the same operations.
-/
import proofs.«142285_j11828339933907_1_alg».proof.Proof.Gen.ReferenceIdeal.Read
import proofs.«142285_j11828339933907_1_alg».proof.Proof.LibPlainDot
import proofs.«142285_j11828339933907_1_alg».proof.Proof.Network
import Idealize.ShloMosaic.Lib.IdealHost

noncomputable section

open scoped BigOperators

namespace Cert.ReferenceIdeal.Net

open Cert.ReferenceIdeal Cert.ReferenceIdeal.Read Idealize.ShloMosaic Idealize.ShloMosaic.ValueIdx
open Cert.DenseRow Cert.RowBias Cert.Net

/-! ## The four products' dimension records are the plain product's -/

theorem dims_64_64 : dot_S100000x64_S64x64_S100000x64_1_0_0_1_n_n = DotDims.plain 100000 64 64 := rfl
theorem dims_128_64 : dot_S100000x128_S128x64_S100000x64_1_0_0_1_n_n = DotDims.plain 100000 128 64 := rfl
theorem dims_64_16 : dot_S100000x64_S64x16_S100000x16_1_0_0_1_n_n = DotDims.plain 100000 64 16 := rfl
theorem dims_16_64 : dot_S100000x16_S16x64_S100000x64_1_0_0_1_n_n = DotDims.plain 100000 16 64 := rfl

variable (θ : Weights) (x0 : Arr 100000 64) (x1 x2 : (⟨S800000, .i32⟩ : BufTy).Contents (Elt Ideal)) (x3 : Arr 100000 16)

/-- The hidden rows. -/
theorem enc_eq :
    val_main_v34 (F := Ideal) x0 x1 x2 θ.wagg θ.bagg θ.wfus θ.bfus θ.w1 θ.b1
      = enc θ x0 (val_main_v18 (F := Ideal) x0 x1 x2) := by
  unfold val_main_v34 val_main_v33 val_main_v32 val_main_v31 val_main_v30 val_main_call2_v0 val_main_call2_cst
    val_main_v29 val_main_v28 val_main_v27 val_main_v26 val_main_v25 val_main_v24 val_main_call1_v0 val_main_call1_cst
    val_main_v23 val_main_v22 val_main_v21 val_main_v20 val_main_v19 val_main_call0_v0 val_main_call0_cst enc
  rw [dims_64_64, dims_128_64]
  rw [PlainDot.hlayer, hact, concatArr (show 128 = 64 + 64 from rfl), PlainDot.hlayer, hact, PlainDot.hlayer, hact]

/-- The latent mean. -/
theorem mean_eq :
    val_main_v38 (F := Ideal) x0 x1 x2 θ.wagg θ.bagg θ.wfus θ.bfus θ.w1 θ.b1 θ.w21 θ.b21
      = mean θ x0 (val_main_v18 (F := Ideal) x0 x1 x2) := by
  unfold val_main_v38 val_main_v37 val_main_v36 val_main_v35 mean
  rw [enc_eq, dims_64_16, PlainDot.hlayer]

/-- The latent log-variance. -/
theorem logvar_eq :
    val_main_v42 (F := Ideal) x0 x1 x2 θ.wagg θ.bagg θ.wfus θ.bfus θ.w1 θ.b1 θ.w22 θ.b22
      = logvar θ x0 (val_main_v18 (F := Ideal) x0 x1 x2) := by
  unfold val_main_v42 val_main_v41 val_main_v40 val_main_v39 logvar
  rw [enc_eq, dims_64_16, PlainDot.hlayer]

/-- The latent sample: the mean plus the noise times the exponential of half the log-variance. -/
theorem latent_eq :
    val_main_v47 (F := Ideal) x0 x1 x2 x3 θ.wagg θ.bagg θ.wfus θ.bfus θ.w1 θ.b1 θ.w21 θ.b21 θ.w22 θ.b22
      = latent θ x0 (val_main_v18 (F := Ideal) x0 x1 x2) x3 := by
  unfold val_main_v47 val_main_v46 val_main_v45 val_main_v44 val_main_v43 val_main_cst_4
  rw [mean_eq, logvar_eq]
  funext i
  show mean θ x0 _ i + x3 i * Ideal.exp (broadcastInDim S100000x16 ![] _ (constant (F := Ideal) S_ .f32 0x3F000000#32) i
      * logvar θ x0 _ i) = _
  rw [broadcastInDim_scalar_apply]
  rfl

/-- The decoder's output before the logistic function. -/
theorem logits_eq :
    val_main_v56 (F := Ideal) x0 x1 x2 x3 θ.wagg θ.bagg θ.wfus θ.bfus θ.w1 θ.b1 θ.w21 θ.b21 θ.w22 θ.b22 θ.w3 θ.b3 θ.w4 θ.b4
      = logits θ x0 (val_main_v18 (F := Ideal) x0 x1 x2) x3 := by
  unfold val_main_v56 val_main_v55 val_main_v54 val_main_v53 val_main_v52 val_main_call3_v0 val_main_call3_cst
    val_main_v51 val_main_v50 val_main_v49 val_main_v48 logits
  rw [latent_eq, dims_16_64, dims_64_64, PlainDot.hlayer, hact, PlainDot.hlayer]

/-- The reconstruction: one over one plus the exponential of the negated output is the logistic function of it. -/
theorem recon_eq :
    val_main_v62 (F := Ideal) x0 x1 x2 x3 θ.wagg θ.bagg θ.wfus θ.bfus θ.w1 θ.b1 θ.w21 θ.b21 θ.w22 θ.b22 θ.w3 θ.b3 θ.w4 θ.b4
      = recon θ x0 (val_main_v18 (F := Ideal) x0 x1 x2) x3 := by
  unfold val_main_v62 val_main_v61 val_main_cst_6 val_main_v60 val_main_v59 val_main_cst_5 val_main_v58 val_main_v57
  rw [logits_eq]
  funext i
  show Ideal.div (broadcastInDim S100000x64 ![] _ (constant (F := Ideal) S_ .f32 0x3F800000#32) i)
      (broadcastInDim S100000x64 ![] _ (constant (F := Ideal) S_ .f32 0x3F800000#32) i
        + Ideal.exp (-(logits θ x0 _ x3 i))) = Ideal.logistic (logits θ x0 _ x3 i)
  rw [broadcastInDim_scalar_apply]
  show Ideal.div (Ideal.ofBits .f32 0x3F800000#32) (Ideal.ofBits .f32 0x3F800000#32 + Ideal.exp (-(logits θ x0 _ x3 i))) = _
  rw [Ideal.ofBits_one_f32]
  rfl

end Cert.ReferenceIdeal.Net

end
-- ==== Proof.Bridge.lean ====
/-
  THE TWO PROGRAMS COMPUTE ONE FUNCTION OF THE ARGUMENTS, at the ideal values.

  Both programs first form the neighbour average by the same host operations, in the same order, with the same words:
  gather the source rows of the edges, add them into the rows of their destinations, count the edges into each
  destination, take the larger of the count and one, and divide.  So the array the kernel's launch finds there (`navg`) is the
  reference's own stage, term for term (`navg_eq`); no operation of it is opened.
  From there the kernel's three result arrays are the network's reconstruction, latent mean and latent log-variance of all
  100000 rows (Blocks.lean), and so are the reference's (Host.lean).  With the two memories agreeing on the eighteen
  arguments, the results are equal element by element (`algebraic`).  No law of the extended reals that needs finite
  operands is used — sums are neither regrouped nor distributed over — so the precondition is not opened.
  The three frames: the kernel's two programs by their generated frames, the reference by its generated run.
-/
import proofs.«142285_j11828339933907_1_alg».proof.Defs
import proofs.«142285_j11828339933907_1_alg».proof.Proof.Gen.Kernel.Frame
import proofs.«142285_j11828339933907_1_alg».proof.Proof.Gen.KernelIdeal.Frame
import proofs.«142285_j11828339933907_1_alg».proof.Proof.Gen.ReferenceIdeal.Run
import proofs.«142285_j11828339933907_1_alg».proof.Proof.Gen.Pre_finite_inputs
import proofs.«142285_j11828339933907_1_alg».proof.Proof.Blocks
import proofs.«142285_j11828339933907_1_alg».proof.Proof.Host
import Idealize.ShloMosaic.Lib.StableHlo.Run

noncomputable section

open Idealize.ShloMosaic Idealize.ShloMosaic.TcCoe Idealize.SL.Sem

namespace Cert.Proof.Bridge

open Cert.Net Cert.KernelIdeal.Windows

set_option maxRecDepth 8192 in
set_option maxHeartbeats 8000000 in
/-- The neighbour average as the kernel's launch finds it is the reference's stage of the same three arguments. -/
theorem navg_eq (m : (ℓ : Loc Cert.KernelIdeal.nD Cert.KernelIdeal.τ Cert.KernelIdeal.sig) → Buf (Elt Ideal) ℓ)
    (c : Dev Cert.KernelIdeal.nD) :
    Cert.KernelIdeal.Windows.navg m c
      = Cert.ReferenceIdeal.Read.val_main_v18 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) := by
  unfold Cert.KernelIdeal.Windows.navg
  show (Cert.KernelIdeal.Gen.V m c Cert.KernelIdeal.main_v18 : Arr 100000 64) = _
  dsimp only [Cert.KernelIdeal.Gen.V, Cert.KernelIdeal.Gen.hostOps0]
  after_results_simp <;> rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.Value.run (F := Ideal) m ρ)

set_option maxHeartbeats 2000000 in
/-- Run from memories that agree on the arguments, both programs end with the network's reconstruction, latent mean and
    latent log-variance of all rows. -/
theorem algebraic : Cert.algebraic_KernelIdeal_ReferenceIdeal := by
  intro m ρ m' ρ' _ hagree
  refine ⟨fun c => recon (weights m c) (m ((c : Thread Cert.KernelIdeal.nD Cert.KernelIdeal.τ).loc Cert.KernelIdeal.main_arg0)) (Cert.KernelIdeal.Windows.navg m c) (m ((c : Thread Cert.KernelIdeal.nD Cert.KernelIdeal.τ).loc Cert.KernelIdeal.main_arg3)),
    fun c => mean (weights m c) (m ((c : Thread Cert.KernelIdeal.nD Cert.KernelIdeal.τ).loc Cert.KernelIdeal.main_arg0)) (Cert.KernelIdeal.Windows.navg m c),
    fun c => logvar (weights m c) (m ((c : Thread Cert.KernelIdeal.nD Cert.KernelIdeal.τ).loc Cert.KernelIdeal.main_arg0)) (Cert.KernelIdeal.Windows.navg m c),
    Cert.KernelIdeal.Blocks.run m ρ, ?_⟩
  refine (θ_run Cert.ReferenceIdeal.defs _ _).mono (fun r h c => ?_) (Cert.ReferenceIdeal.Value.run (F := Ideal) m' ρ')
  obtain ⟨a0, a1, a2, a3, a4, a5, a6, a7, a8, a9, a10, a11, a12, a13, a14, a15, a16, a17⟩ := hagree c
  refine ⟨(h c).1.trans ?_,
    (h c).2.1.trans ((Cert.ReferenceIdeal.Read.val_main_v38_eq _ _ _ _ _ _ _ _ _ _ _).trans ?_),
    (h c).2.2.1.trans ((Cert.ReferenceIdeal.Read.val_main_v42_eq _ _ _ _ _ _ _ _ _ _ _).trans ?_), (h c).2.2.2⟩
  · rw [Cert.ReferenceIdeal.Read.val_main_v62_eq m' c]
    beta_reduce
    rw [a0, a1, a2, a3, a4, a5, a6, a7, a8, a9, a10, a11, a12, a13, a14, a15, a16, a17, navg_eq m c]
    exact Cert.ReferenceIdeal.Net.recon_eq (weights m c) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3))
  · beta_reduce
    rw [a0, a1, a2, a4, a5, a6, a7, a8, a9, a10, a11, navg_eq m c]
    exact Cert.ReferenceIdeal.Net.mean_eq (weights m c) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2))
  · beta_reduce
    rw [a0, a1, a2, a4, a5, a6, a7, a8, a9, a12, a13, navg_eq m c]
    exact Cert.ReferenceIdeal.Net.logvar_eq (weights m c) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2))

end Cert.Proof.Bridge

end
-- ==== Proof.lean ====
/-
  The certificate of the neighbourhood-aware variational autoencoder's fused kernel against its reference.

  Both programs first form, on the host and by the same operations, the mean of every node's in-neighbours' features.
  The kernel then runs the network — neighbourhood encoding, fusion with the features, encoder, latent sample, decoder —
  on 50 blocks of 2000 rows, its matrix products taking operands narrowed to a shorter float format; the reference runs
  it on all 100000 rows at once, the logistic function spelt out as one over one plus an exponential.  At the ideal values a
  change of format is the identity and the spelt-out expression is the logistic function, and each output row of the network
  depends on the same input row only: so both programs return the same reconstruction, latent mean and latent
  log-variance (Proof/Bridge.lean, over Proof/Blocks.lean for the kernel and Proof/Host.lean for the reference).
  The three programs' frames are the generated ones; the idealization rewrote nothing, so `preserves` is `True`.
-/
import proofs.«142285_j11828339933907_1_alg».proof.Defs
import proofs.«142285_j11828339933907_1_alg».proof.Proof.Gen.Kernel
import proofs.«142285_j11828339933907_1_alg».proof.Proof.Gen.KernelIdeal
import proofs.«142285_j11828339933907_1_alg».proof.Proof.Gen.ReferenceIdeal
import proofs.«142285_j11828339933907_1_alg».proof.Proof.Gen.Pre_finite_inputs
import proofs.«142285_j11828339933907_1_alg».proof.Proof.Bridge

noncomputable section

namespace Cert.Proof

theorem claim : Cert.Claim :=
  ⟨Cert.Kernel.Gen.facts, Cert.KernelIdeal.Gen.facts, Cert.ReferenceIdeal.Gen.facts, Cert.Pre_finite_inputs.Gen.facts,
    Bridge.frame_k, Bridge.frame_ki, Bridge.frame_ri, trivial, Bridge.algebraic⟩

end Cert.Proof

end
